-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg1 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  main_v22

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S8192x256 : Shape := ⟨2, ![8192, 256]⟩
abbrev S8192x128 : Shape := ⟨2, ![8192, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 29
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S100000x128, .f32⟩
  | .local _ .vmem, ⟨0, _⟩ => ⟨S8192x256, .f32⟩
  | .local _ .vmem, ⟨1, _⟩ => ⟨S8192x256, .f32⟩
  | .local _ .vmem, ⟨2, _⟩ => ⟨S256x128, .f32⟩
  | .local _ .vmem, ⟨3, _⟩ => ⟨S8192x128, .f32⟩
  | .local _ .vmem, ⟨4, _⟩ => ⟨S8192x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S8192x128_S8192x128_0_0 : ∀ a, (![0, 0] : Fin 2 → Nat) a + S8192x128.size a ≤ S8192x128.size a
  h_S8192x128 : 0 < S8192x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S128_S100000x128_1 : S128.BroadcastsInDim S100000x128 (![1] : Fin 1 → Fin S100000x128.rank)
  dot_S8192x256_S256x128_S8192x128_1_0_0_1_n_n_wf : DotDims.WF S8192x256 S256x128 S8192x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x256.size a < S100000x256.size a
  hwx0_0 : ∀ i : grid0.Coords, EltTy.bits .f32 = 32 ∨ (Rect.unit (s := S100000x256) (fun a => cc0_transform_0 i a * S8192x256.size a) (fun a => (Pipeline.Clip.of (cc0_transform_0 i a) (S8192x256.size a) (S100000x256.size a)).extent (S8192x256.size a)) fun a => Pipeline.Clip.inb (Pipeline.Clip.ok_of (hstart0_0 i a))).WholeWords (EltTy.packing .f32)
  hwxs0_0 : ∀ i : grid0.Coords, EltTy.bits .f32 = 32 ∨ (Rect.unit (s := S8192x256) (fun _ => 0) (fun a => (Pipeline.Clip.of (cc0_transform_0 i a) (S8192x256.size a) (S100000x256.size a)).extent (S8192x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S100000x128.size a
  hwx0_2 : ∀ i : grid0.Coords, EltTy.bits .f32 = 32 ∨ (Rect.unit (s := S100000x128) (fun a => cc0_transform_2 i a * S8192x128.size a) (fun a => (Pipeline.Clip.of (cc0_transform_2 i a) (S8192x128.size a) (S100000x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S100000x128.size a)).extent (S8192x128.size a)) fun a => (Nat.zero_add _).trans_le (Pipeline.Clip.extent_le (Pipeline.Clip.ok_of (hstart0_2 i a)))).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpecClip (Memref.whole main_arg0) S8192x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S8192x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.WordBody.lean ====
/-
  The matmul body of the one kernel region, run once on whole staging buffers: it loads the row block of x
  ([8192, 256]) and the whole of w ([256, 128]), rounds both to bf16, multiplies them into a zero accumulator
  and stores the [8192, 128] product block over the whole output buffer. Stated for any float instance: the two
  input buffers are left as found, the output buffer ends holding the product of what the input buffers held,
  whatever it held before (the body also loads it, and uses nothing of what it read).
-/
import proofs.«137048_j5403068858431_2_alg».proof.Proof.Gen.Kernel.Launch
import proofs.«137048_j5403068858431_2_alg».proof.Proof.Gen.Kernel.Skeleton
import proofs.«137048_j5403068858431_2_alg».proof.Proof.Gen.Kernel.Points
import proofs.«137048_j5403068858431_2_alg».proof.Proof.Gen.Kernel.Frame
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The three accesses: each the whole of its buffer. -/
abbrev rX : Rect S8192x256 := Rect.unit (s := S8192x256) ![0, 0] S8192x256.size inb_S8192x256_S8192x256_0_0
abbrev rW : Rect S256x128 := Rect.unit (s := S256x128) ![0, 0] S256x128.size inb_S256x128_S256x128_0_0
abbrev rO : Rect S8192x128 := Rect.unit (s := S8192x128) ![0, 0] S8192x128.size inb_S8192x128_S8192x128_0_0

/-- What the output buffer holds after the body when the input buffers hold `x0` and `x1`: its one store, the
    product of the two loads. -/
def outBlk (x0 : Vec F S8192x256 .f32) (x1 : Vec F S256x128 .f32) : Vec F S8192x128 .f32 :=
  View.canon [⟨rO, k0_pay1 (View.ld x0 rX) (View.ld x1 rW)⟩]

/-- The one store covers the output buffer. -/
theorem cover_out (p0 : Vec F S8192x128 .f32) (y : S8192x128.Idx) :
    ∃ pc ∈ ([⟨rO, p0⟩] : List (View.Piece (Elt F) S8192x128 .f32)), y ∈ pc.1.set :=
  View.cover_of_tiled [⟨rO, p0⟩] S8192x128.size (by rfl) y

set_option maxHeartbeats 1000000 in
/-- The body on whole staging memrefs: x's at `x0`, w's at `x1`, the output's at anything; it returns them at
    `x0`, `x1` and `outBlk x0 x1`. -/
theorem sound_kernel (c : Dev nD) (E : Set ℕ) (i : grid0.Coords)
    (arg1 : Memref sig .tc .vmem S8192x256 .f32) (harg1 : arg1.IsWhole)
    (arg2 : Memref sig .tc .vmem S256x128 .f32) (harg2 : arg2.IsWhole)
    (arg3 : Memref sig .tc .vmem S8192x128 .f32) (harg3 : arg3.IsWhole)
    (x0 : Vec F S8192x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The stored block is the product payload of the two buffers' contents: the accesses are the whole buffers. -/
theorem outBlk_eq (x0 : Vec F S8192x256 .f32) (x1 : Vec F S256x128 .f32) : outBlk x0 x1 = k0_pay1 x0 x1 := by
  have hz : (![0, 0] : Fin 2 → Nat) = fun _ => 0 := funext fun a => by fin_cases a <;> rfl
  unfold outBlk
  rw [View.canon_unit_zero hz inb_S8192x128_S8192x128_0_0,
    View.ld_unit_zero (S := S8192x256) hz inb_S8192x256_S8192x256_0_0,
    View.ld_unit_zero (S := S256x128) hz inb_S256x128_S256x128_0_0]

end Cert.Kernel.Region

end
-- ==== Proof.WordFrame.lean ====
/-
  The frame of the word-level program: it runs to the end, faults nowhere and leaves its six argument arrays
  unchanged. Nothing here says what the region computes: the proof data is relational and constrains nothing of
  what the body leaves in a staging buffer, so the body obligation only has to run the body — three whole loads and
  a whole store — on whatever the three buffers hold. The two arrays the region reads (x and w) are never written;
  the other four arguments are touched by no window and by no host line after the region.
-/
import proofs.«137048_j5403068858431_2_alg».proof.Proof.WordBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of what the body leaves in a buffer, nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body runs on any contents of the three buffers and hands them back. -/
theorem body_obligation (c : Dev nD) :
    (rdat m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2⟩
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (Y 0) (Y 1) _)
  isplitl [H0]; · iexact H0
  isplitl [H1]; · iexact H1
  isplitl [H2]; · iexists (Y 2); iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (outBlk (F := F) (Y 0) (Y 1)); isplitr; · ipureintro; trivial
    iexact H2

/-- The buffers the host lines after the region may write: every one but the four arguments no window stages. -/
def T : Finset (Ref sig .tc) :=
  Finset.univ.filter fun b => b ≠ main_arg1 ∧ b ≠ main_arg2 ∧ b ≠ main_arg3 ∧ b ≠ main_arg5

/-- No host line after the region writes an argument (each writes its own result buffer). -/
theorem tail_writes (k : Ref sig .tc) (hk : k = main_arg1 ∨ k = main_arg2 ∨ k = main_arg3 ∨ k = main_arg5) :
    ∀ op ∈ (hostOps1 : List (HloOp τ sig (Elt F))), Proc.devRef .tc k ∉ op.writes := by
  refine List.forall_iff_forall_mem.mp ?_
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  rcases hk with rfl | rfl | rfl | rfl
  all_goals
    repeat' apply And.intro
    all_goals exact StableHlo.devRef_ne_of_ne (by decide)

theorem hT : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  subst hops
  unfold T
  rw [Finset.mem_filter]
  refine ⟨Finset.mem_univ _, ?_, ?_, ?_, ?_⟩
  · rintro rfl; exact tail_writes _ (.inl rfl) op hop hb
  · rintro rfl; exact tail_writes _ (.inr (.inl rfl)) op hop hb
  · rintro rfl; exact tail_writes _ (.inr (.inr (.inl rfl))) op hop hb
  · rintro rfl; exact tail_writes _ (.inr (.inr (.inr rfl))) op hop hb

set_option backward.isDefEq.respectTransparency.types false in
/-- Every weakly fair execution terminates; the two input arrays end as they were found and every unscoped buffer
    the host lines do not write ends as the region found it. -/
theorem run_main : θ_run defs (onTc (τ := τ) (main (F := F))) (s₀ m ρ)
    (Pipeline.RDat.FramePostR cfg0 (rdat m) T (fun c b => V0 m c (Proc.devRef .tc b))) :=
  Pipeline.RDat.θ_run_frame_around_T cfgs (0 : Fin 1) launch0 defs₀ Variants.none (rdat m) T m ρ main
    (hbody := fun c => body_obligation m c)
    (hshare := fun c w => by unfold RDat.share; split <;> rfl)
    (howed := fun _ _ => rfl) (V₀ := V0 m) (opss := [hostOps1]) (hsub := sfx_sub) (hfresh := sfx_fresh) (hkeep := sfx_keeps)
    (hT := hT) (hmain := hmain m Variants.none) (hA := fun _ _ => rfl) (hΦ := fun _ _ => rfl)

/-- An argument no window stages and no host line writes is in the set the run's post speaks of. -/
theorem mem_rest (k : Ref sig .tc) (hk : k = main_arg1 ∨ k = main_arg2 ∨ k = main_arg3 ∨ k = main_arg5) :
    k ∈ Pipeline.restRefs sig cfg0.spec \ T := by
  rw [Finset.mem_sdiff]
  refine ⟨?_, ?_⟩
  · rcases hk with rfl | rfl | rfl | rfl <;> exact Pipeline.mem_restRefs_of _ (by decide) (by decide)
  · unfold T; rw [Finset.mem_filter]
    rcases hk with rfl | rfl | rfl | rfl <;> simp

/-- THE FRAME of the word-level program. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have hin : ∀ w : Fin cfg0.W, (cfg0.win w).isOut = false →
        r.2.mem ((cfg0.spec w).arr.view.loc (c.tc : Thread nD τ)) = (rdat m c).A w := fun w hw => by
      have := (h c).1 w
      rw [(rdat m c).ArrAt_in w hw] at this
      exact this
    ⟨(hin 0 rfl).trans (V_main_arg0 m c),
      ((h c).2 main_arg1 (mem_rest _ (.inl rfl))).trans (V_main_arg1 m c),
      ((h c).2 main_arg2 (mem_rest _ (.inr (.inl rfl)))).trans (V_main_arg2 m c),
      ((h c).2 main_arg3 (mem_rest _ (.inr (.inr (.inl rfl))))).trans (V_main_arg3 m c),
      (hin 1 rfl).trans (V_main_arg4 m c),
      ((h c).2 main_arg5 (mem_rest _ (.inr (.inr (.inr rfl))))).trans (V_main_arg5 m c)⟩) (run_main m ρ)

end Cert.Kernel.Region

end
-- ==== Proof.RegionBody.lean ====
/-
  The matmul body of the one kernel region, run once on whole staging buffers: it loads the row block of x
  ([8192, 256]) and the whole of w ([256, 128]), rounds both to bf16, multiplies them into a zero accumulator
  and stores the [8192, 128] product block over the whole output buffer. Stated for any float instance: the two
  input buffers are left as found, the output buffer ends holding the product of what the input buffers held,
  whatever it held before (the body also loads it, and uses nothing of what it read).
-/
import proofs.«137048_j5403068858431_2_alg».proof.Proof.Gen.KernelIdeal.Launch
import proofs.«137048_j5403068858431_2_alg».proof.Proof.Gen.KernelIdeal.Skeleton
import proofs.«137048_j5403068858431_2_alg».proof.Proof.Gen.KernelIdeal.Points
import proofs.«137048_j5403068858431_2_alg».proof.Proof.Gen.KernelIdeal.Frame
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The three accesses: each the whole of its buffer. -/
abbrev rX : Rect S8192x256 := Rect.unit (s := S8192x256) ![0, 0] S8192x256.size inb_S8192x256_S8192x256_0_0
abbrev rW : Rect S256x128 := Rect.unit (s := S256x128) ![0, 0] S256x128.size inb_S256x128_S256x128_0_0
abbrev rO : Rect S8192x128 := Rect.unit (s := S8192x128) ![0, 0] S8192x128.size inb_S8192x128_S8192x128_0_0

/-- What the output buffer holds after the body when the input buffers hold `x0` and `x1`: its one store, the
    product of the two loads. -/
def outBlk (x0 : Vec F S8192x256 .f32) (x1 : Vec F S256x128 .f32) : Vec F S8192x128 .f32 :=
  View.canon [⟨rO, k0_pay1 (View.ld x0 rX) (View.ld x1 rW)⟩]

/-- The one store covers the output buffer. -/
theorem cover_out (p0 : Vec F S8192x128 .f32) (y : S8192x128.Idx) :
    ∃ pc ∈ ([⟨rO, p0⟩] : List (View.Piece (Elt F) S8192x128 .f32)), y ∈ pc.1.set :=
  View.cover_of_tiled [⟨rO, p0⟩] S8192x128.size (by rfl) y

set_option maxHeartbeats 1000000 in
/-- The body on whole staging memrefs: x's at `x0`, w's at `x1`, the output's at anything; it returns them at
    `x0`, `x1` and `outBlk x0 x1`. -/
theorem sound_kernel (c : Dev nD) (E : Set ℕ) (i : grid0.Coords)
    (arg1 : Memref sig .tc .vmem S8192x256 .f32) (harg1 : arg1.IsWhole)
    (arg2 : Memref sig .tc .vmem S256x128 .f32) (harg2 : arg2.IsWhole)
    (arg3 : Memref sig .tc .vmem S8192x128 .f32) (harg3 : arg3.IsWhole)
    (x0 : Vec F S8192x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The stored block is the product payload of the two buffers' contents: the accesses are the whole buffers. -/
theorem outBlk_eq (x0 : Vec F S8192x256 .f32) (x1 : Vec F S256x128 .f32) : outBlk x0 x1 = k0_pay1 x0 x1 := by
  have hz : (![0, 0] : Fin 2 → Nat) = fun _ => 0 := funext fun a => by fin_cases a <;> rfl
  unfold outBlk
  rw [View.canon_unit_zero hz inb_S8192x128_S8192x128_0_0,
    View.ld_unit_zero (S := S8192x256) hz inb_S8192x256_S8192x256_0_0,
    View.ld_unit_zero (S := S256x128) hz inb_S256x128_S256x128_0_0]

end Cert.KernelIdeal.Region

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.RegionMath.lean ====
/-
  The body's arithmetic at the ideal instance, read at an index: rounding to bf16 is the identity there and the
  matrix unit's product into a zero accumulator is the exact sum, so entry (r, q) of the stored block is
  Σ_{k < 256} x0 (r, k) · x1 (k, q) — the matrix product of what the two input buffers hold.
-/
import proofs.«137048_j5403068858431_2_alg».proof.Proof.Gen.KernelIdeal.Skeleton
import proofs.«137048_j5403068858431_2_alg».proof.Proof.LibMatProd
import Idealize.ShloMosaic.PureOps.Ideal.Laws
import Idealize.ShloMosaic.Lib.ValueIdx

noncomputable section

namespace Cert.KernelIdeal.Region

open Cert.KernelIdeal Cert.KernelIdeal.Gen
open Idealize.ShloMosaic Idealize.ShloMosaic.ValueIdx

/-- The block product's dimension numbers: the left operand's axis 1 against the right's axis 0, the left's
    axis 0 and the right's axis 1 kept. Which coordinate each operand index takes from where: -/
theorem dot_lhs0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide),
    dif_pos (show (0 : Fin S8192x256.rank) ∈ dot_S8192x256_S256x128_S8192x128_1_0_0_1_n_n.lhsNonContracting by decide)]
  rfl
theorem dot_lhs1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem dot_rhs0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem dot_rhs1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide),
    dif_pos (show (1 : Fin S256x128.rank) ∈ dot_S8192x256_S256x128_S8192x128_1_0_0_1_n_n.rhsNonContracting by decide)]
  rfl

/-- The stored block at the ideal instance is the matrix product of the two loaded blocks, entry by entry. -/
theorem pay_apply (x0 : Vec Ideal S8192x256 .f32) (x1 : Vec Ideal S256x128 .f32) (j : S8192x128.Idx) :
    k0_pay1 (F := Ideal) x0 x1 j = Cert.Gcn.Dense.prod (M := 8192) (K := 256) (N := 128) x0 x1 j := by
  unfold k0_pay1
  simp only [truncf, Ideal.truncf_def, matmul]
  rw [Ideal.matmul_constant_zero_apply]
  exact Cert.Gcn.Dense.sum_contr_eq_prod (M := 8192) (K := 256) (N := 128)
    dot_S8192x256_S256x128_S8192x128_1_0_0_1_n_n rfl rfl dot_lhs0 dot_lhs1 dot_rhs0 dot_rhs1 x0 x1 j

end Cert.KernelIdeal.Region

end
-- ==== Proof.RegionSchedule.lean ====
/-
  The schedule of the one region, decided over its 13 grid points. Point t stages rows 8192·t … of x and of the
  output; every point stages the whole of w. The last block (t = 12) overhangs the 100000-row arrays: only its
  first 1696 rows are moved, the other points move all 8192.
-/
import proofs.«137048_j5403068858431_2_alg».proof.Proof.Gen.KernelIdeal.Points

noncomputable section

namespace Cert.KernelIdeal.Region

open Cert.KernelIdeal Cert.KernelIdeal.Gen
open Idealize.ShloMosaic Idealize.ShloMosaic.TcCoe
open Idealize.SL Idealize.SL.Sem

/-- How many rows of its block point `t` moves. -/
def rowsAt (t : Nat) : Nat := if t = 12 then 1696 else 8192

/-- The block indices and the moved extents of the three windows at every point. -/
theorem sched : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_0.xsize (grid0.coords t) (0 : Fin 2) = rowsAt t.val ∧ win0_0.xsize (grid0.coords t) (1 : Fin 2) = 256
    ∧ win0_2.xsize (grid0.coords t) (0 : Fin 2) = rowsAt t.val ∧ win0_2.xsize (grid0.coords t) (1 : Fin 2) = 128 :=
  (by decide +kernel : ∀ t : Fin grid0.N, _)

/-- The output window is never fetched. -/
theorem fetch0_2 : ∀ t : Fin cfg0.N, (cfg0.win 2).fetch t = false :=
  (by decide +kernel : ∀ t : Fin grid0.N, win0_2.fetch t = false)

theorem rowsAt_le (t : Nat) : rowsAt t ≤ 8192 := by unfold rowsAt; split <;> omega

/-- The rows a point moves lie inside the arrays. -/
theorem rows_inb (t : Fin cfg0.N) : t.val * 8192 + rowsAt t.val ≤ 100000 := by
  have h : t.val < 13 := t.isLt
  unfold rowsAt; split <;> omega

end Cert.KernelIdeal.Region

end
-- ==== Proof.HostSpec.lean ====
/- The product matrix both programs scatter from, as one function of the two factor arrays.

   Entry (r, c) of the product of a 100000 x 256 array with a 256 x 128 array is the sum over the
   contracted coordinate k of x(r, k) * w(k, c), an exact sum of extended reals.  This module names
   no program: it is the common specification the two sides are compared through. -/
import Idealize.ShloMosaic.PureOps.Ideal
import Idealize.ShloMosaic.Lib.ValueIdx

noncomputable section

open scoped BigOperators

namespace Cert.HostSpec

open Idealize.ShloMosaic Idealize.ShloMosaic.ValueIdx

/-- The matrix product at an index: row `i 0` of `x` against column `i 1` of `w`. -/
def Hmat (x : (⟨2, ![100000, 256]⟩ : Shape).Idx → EReal) (w : (⟨2, ![256, 128]⟩ : Shape).Idx → EReal) :
    (⟨2, ![100000, 128]⟩ : Shape).Idx → EReal :=
  fun i => ∑ k : Fin 256, x (ix2 (i 0 : Fin 100000) k) * w (ix2 k (i 1 : Fin 128))

/-- The product at explicit coordinates. -/
theorem Hmat_ix2 (x : (⟨2, ![100000, 256]⟩ : Shape).Idx → EReal) (w : (⟨2, ![256, 128]⟩ : Shape).Idx → EReal)
    (r : Fin 100000) (c : Fin 128) :
    Hmat x w (ix2 r c) = ∑ k : Fin 256, x (ix2 r k) * w (ix2 k c) := rfl

end Cert.HostSpec

end
-- ==== Proof.RegionIdeal.lean ====
/-
  The kernel region at the ideal instance: its proof data, the body obligation and the run.

  Point t stages rows 8192·t … of x (only the rows inside the array are fetched: the last block's tail holds words
  nothing names), the whole of w, and writes back the rows of its product block that lie inside the output array.
  Entry (r, q) of the block product depends on row r of the staged x block only, so on the rows that are written
  back the stored block is the block of the product matrix x·w, whatever the tail of the x buffer held.
-/
import proofs.«137048_j5403068858431_2_alg».proof.Proof.RegionBody
import proofs.«137048_j5403068858431_2_alg».proof.Proof.RegionMath
import proofs.«137048_j5403068858431_2_alg».proof.Proof.RegionSchedule
import proofs.«137048_j5403068858431_2_alg».proof.Proof.HostSpec

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The product matrix and the blocks -/

/-- The product matrix x·w, as contents of the output array. -/
def Hfull (c : Dev nD) : Buf (Elt Ideal) ((c : Thread nD τ).loc main_v0) :=
  Cert.HostSpec.Hmat (m ((c : Thread nD τ).loc main_arg0)) (m ((c : Thread nD τ).loc main_arg4))

/-- The rows of x that point `t` fetches (its block's part inside the array). -/
def xblk (c : Dev nD) (t : Fin cfg0.N) : (win0_0.xblock (grid0.coords t)).Idx → Elt Ideal .f32 :=
  (win0_0.blk t).view.read (Elt Ideal) (V m c main_arg0)

/-- The rows of the product matrix that point `t` writes back. -/
def hblk (c : Dev nD) (t : Fin cfg0.N) : (win0_2.xblock (grid0.coords t)).Idx → Elt Ideal .f32 :=
  (win0_2.blk t).view.read (Elt Ideal) (Hfull m c)

/-- What the proof data names in the two clipped windows' buffers after the body: the block on the moved rows,
    the zero word on the rows past the array's end (of which nothing is stated or used). -/
def xfill (c : Dev nD) (t : Fin cfg0.N) : S8192x256.Idx → Elt Ideal .f32 :=
  win0_0.fill (grid0.coords t) (fun _ => Scalar.ofBits (F := Ideal) .f32 0#32) (xblk m c t)
def hfill (c : Dev nD) (t : Fin cfg0.N) : S8192x128.Idx → Elt Ideal .f32 :=
  win0_2.fill (grid0.coords t) (fun _ => Scalar.ofBits (F := Ideal) .f32 0#32) (hblk m c t)

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => hfill m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = xfill m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = hfill m c t := by dsimp only [dats]

/-! ## What the body finds -/

/-- x's buffer just fetched: its rows inside the array, anything past them. -/
theorem before_0 (c : Dev nD) (t : Fin cfg0.N) (d) :
    (dats m 0 c).before 0 t d = win0_0.fill (grid0.coords t) d (xblk m c t) := by
  rw [(dats m 0 c).before_fetched 0 t (fetch0_0 t)]; rfl
/-- w's buffer: the whole of w, fetched at the first point and kept. -/
theorem before_1 (c : Dev nD) (t : Fin cfg0.N) (d) : (dats m 0 c).before 1 t d = iblk m c 1 t :=
  before0_1_of m (dats m 0 c) (A_eq m c 1) (after_1 m c) t d
/-- The output's buffer: anything (it was written back at the point before). -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The rows written back are the product matrix's -/

/-- A filled block at an index of its moved part reads the filling. -/
theorem fill_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- Entry (r, q) of the block product when row r of the left block is row R of x and the right block is w:
    entry (R, q) of x·w. -/
theorem pay_row (X0 : Vec Ideal S8192x256 .f32) (X1 : Vec Ideal S256x128 .f32)
    (x : (⟨2, ![100000, 256]⟩ : Shape).Idx → EReal) (w : (⟨2, ![256, 128]⟩ : Shape).Idx → EReal)
    (r : Fin 8192) (R : Fin 100000) (q : Fin 128)
    (h0 : ∀ k : Fin 256, X0 (ix2 r k) = x (ix2 R k)) (h1 : ∀ k : Fin 256, X1 (ix2 k q) = w (ix2 k q)) :
    k0_pay1 (F := Ideal) X0 X1 (ix2 r q) = Cert.HostSpec.Hmat x w (ix2 R q) := by
  rw [pay_apply]
  unfold Cert.Gcn.Dense.prod Cert.HostSpec.Hmat
  refine Finset.sum_congr rfl fun k _ => ?_
  show X0 (ix2 r k) * X1 (ix2 k q) = x (ix2 R k) * w (ix2 k q)
  rw [h0 k, h1 k]

/-- THE MOVED PART of what the body stores at point `t` is the block of x·w there, whatever the x buffer held
    past the array's end. -/
theorem cut_out (c : Dev nD) (t : Fin cfg0.N) (d0 : S8192x256.Idx → Elt Ideal .f32) :
    win0_2.cut (grid0.coords t) (outBlk (F := Ideal) (win0_0.fill (grid0.coords t) d0 (xblk m c t)) (iblk m c 1 t))
      = hblk m c t := by
  obtain ⟨e00, e01, e10, e11, e20, e21, sx0, sx1, so0, so1⟩ := sched t
  have hrow := rows_inb t
  have hle := rowsAt_le t.val
  funext j
  have hj0 : (j 0).val < rowsAt t.val := so0 ▸ (j 0).isLt
  have hj1 : (j 1).val < 128 := so1 ▸ (j 1).isLt
  rw [outBlk_eq]
  show k0_pay1 (F := Ideal) _ _ (win0_2.xinj (grid0.coords t) j) = Hfull m c ((win0_2.blk t).view.emb j)
  have ej : win0_2.xinj (grid0.coords t) j = ix2 (⟨(j 0).val, by omega⟩ : Fin 8192) (⟨(j 1).val, hj1⟩ : Fin 128) :=
    funext fun a => Fin.ext (by match a with | ⟨0, _⟩ => rfl | ⟨1, _⟩ => rfl)
  have eo : (win0_2.blk t).view.emb j
      = ix2 (⟨t.val * 8192 + (j 0).val, by omega⟩ : Fin 100000) (⟨(j 1).val, hj1⟩ : Fin 128) :=
    funext fun a => Fin.ext (by
      match a with
      | ⟨0, _⟩ => show win0_2.index t (0 : Fin 2) * 8192 + 1 * (j 0).val = t.val * 8192 + (j 0).val; omega
      | ⟨1, _⟩ => show win0_2.index t (1 : Fin 2) * 128 + 1 * (j 1).val = (j 1).val; omega)
  rw [ej, eo]
  unfold Hfull
  refine pay_row _ _ _ _ _ _ _ (fun k => ?_) (fun k => ?_)
  · -- row (j 0) of the filled x block is row 8192·t + (j 0) of x
    rw [fill_of_lt win0_0 (grid0.coords t) d0 (xblk m c t) _ (fun a => by
      match a with
      | ⟨0, _⟩ => show (j 0).val < win0_0.xsize (grid0.coords t) (0 : Fin 2); omega
      | ⟨1, _⟩ => show k.val < win0_0.xsize (grid0.coords t) (1 : Fin 2); have := k.isLt; omega)]
    show V m c main_arg0 ((win0_0.blk t).view.emb _) = m ((c : Thread nD τ).loc main_arg0) _
    rw [V_main_arg0]
    congr 1
    funext a; apply Fin.ext
    match a with
    | ⟨0, _⟩ => show win0_0.index t (0 : Fin 2) * 8192 + 1 * (j 0).val = t.val * 8192 + (j 0).val; omega
    | ⟨1, _⟩ => show win0_0.index t (1 : Fin 2) * 256 + 1 * k.val = k.val; omega
  · -- w's block is the whole of w
    show V m c main_arg4 ((win0_1.blk t).view.emb _) = m ((c : Thread nD τ).loc main_arg4) _
    rw [V_main_arg4]
    congr 1
    funext a; apply Fin.ext
    match a with
    | ⟨0, _⟩ => show win0_1.index t (0 : Fin 2) * 256 + 1 * k.val = k.val; omega
    | ⟨1, _⟩ => show win0_1.index t (1 : Fin 2) * 128 + 1 * (j 1).val = (j 1).val; omega

end Cert.KernelIdeal.Region

end
-- ==== Proof.RegionRun.lean ====
/-
  The kernel region at the ideal instance, run: the body obligation at every point, the run of the whole program
  (the region, then the host lines after it), the frame, and the output array of the region after its thirteen
  write-backs — the product matrix x·w, every row of which lies in exactly the rows some point moves.
-/
import proofs.«137048_j5403068858431_2_alg».proof.Proof.RegionIdeal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The body obligation -/

/-- At every point: x's buffer arrives holding its rows inside the array and anything past them, w's holding w,
    the output's holding anything; the body leaves the first two as they were and the output's at the product
    block, which on the rows written back is the block of x·w (`cut_out`) — all the two clipped windows'
    obligations state. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (xblk m c t)) (iblk m c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  have hx : win0_0.cut (grid0.coords t) (xfill m c t) = xblk m c t := win0_0.cut_fill _ _ _
  have hh : win0_2.cut (grid0.coords t) (hfill m c t) = hblk m c t := win0_2.cut_fill _ _ _
  isplitl [H0]
  · iexists d0
    change _ ⊢ owns (c : Thread nD τ) (stage0_0 (cfg0.slots t 0)) fullShare
      (win0_0.fill (grid0.coords t) d0 (win0_0.cut (grid0.coords t) (xfill m c t)))
    rw [hx]; try iexact H0
  isplitl [H1]
  · first
      | iexact H1
      | (rw [after_1 m c t]; try iexact H1)
  · iexists outBlk (F := Ideal) (win0_0.fill (grid0.coords t) d0 (xblk m c t)) (iblk m c 1 t)
    change _ ⊢ owns (c : Thread nD τ) (stage0_2 (cfg0.slots t 2)) fullShare
      (win0_2.fill (grid0.coords t) (outBlk (F := Ideal) (win0_0.fill (grid0.coords t) d0 (xblk m c t)) (iblk m c 1 t))
        (win0_2.cut (grid0.coords t) (hfill m c t)))
    rw [hh, ← cut_out m c t d0, win0_2.fill_cut]; try iexact H2

/-! ## The run and the frame -/

set_option backward.isDefEq.respectTransparency.types false in
/-- Every weakly fair execution of the program terminates, every array of the pipeline ends at what the proof data
    computes and every other unscoped buffer as the host lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its six argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-! ## The region's output array after the run -/

/-- What point `t` writes back is its block of x·w. -/
theorem flushed_eq (c : Dev nD) (t : Fin cfg0.N) :
    (dats m 0 c).flushed 2 t = ((cfg0.win 2).blk t).view.read (Elt Ideal) (Hfull m c) := by
  show (cfg0.win 2).cut (grid0.coords t) ((dats m 0 c).after 2 t) = _
  rw [after_2]
  exact win0_2.cut_fill _ _ _

/-- An index of the output array is in point `t`'s block iff each coordinate is in the range the point moves. -/
theorem mem_blk (t : Fin cfg0.N) (i : S100000x128.Idx) :
    i ∈ ((cfg0.win 2).blk t).view.set ↔ ∀ a : Fin 2, win0_2.index t a * S8192x128.size a ≤ (i a).val
      ∧ (i a).val < win0_2.index t a * S8192x128.size a + win0_2.xsize (grid0.coords t) a := by
  show i ∈ ((View.whole main_v0).slice (win0_2.rect t)).set ↔ _
  rw [View.set_slice_whole, Rect.mem_set_unit]
  exact Iff.rfl

/-- Row r of the output lies in the block of point r / 8192: the thirteen blocks' moved rows are 0 … 99999. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 13 := N_0
  refine ⟨⟨(i 0).val / 8192, hN ▸ (by omega : (i 0).val / 8192 < 13)⟩, flush0_2 _, ?_⟩
  rw [mem_blk]
  obtain ⟨-, -, -, -, e20, e21, -, -, so0, so1⟩ := sched ⟨(i 0).val / 8192, hN ▸ (by omega : (i 0).val / 8192 < 13)⟩
  intro a
  match a with
  | ⟨0, _⟩ =>
    show win0_2.index _ (0 : Fin 2) * 8192 ≤ (i 0).val ∧ (i 0).val < win0_2.index _ (0 : Fin 2) * 8192 + win0_2.xsize _ (0 : Fin 2)
    rw [e20, so0]
    show (i 0).val / 8192 * 8192 ≤ (i 0).val ∧ (i 0).val < (i 0).val / 8192 * 8192 + rowsAt ((i 0).val / 8192)
    unfold rowsAt
    split <;> omega
  | ⟨1, _⟩ =>
    show win0_2.index _ (1 : Fin 2) * 128 ≤ (i 1).val ∧ (i 1).val < win0_2.index _ (1 : Fin 2) * 128 + win0_2.xsize _ (1 : Fin 2)
    rw [e21, so1]
    omega

/-- THE REGION'S OUTPUT after the run: the product matrix x·w. -/
theorem final_h (c : Dev nD) : (dats m 0 c).arrAt 2 cfg0.N = Hfull m c :=
  (dats m 0 c).arrAt_eq_of_cover 2 (Hfull m c) (fun t _ => flushed_eq m c t) cover

end Cert.KernelIdeal.Region

end
-- ==== Proof.HostLaw.lean ====
/- The host tail both programs end with, and the law between its two arrangements.

   From the node features `h` (100000 x 128), the edge arrays `row`, `col` (1600000 integers) and
   `val` (1600000 reals) and the bias `b` (128 reals):
     messages   M(e, f) = val(e) * h(wrap(col(e)), f)   where wrap(i) = i + 100000 if i < 0, else i;
     one side   out = scatter-add of M at the rows wrap(row(e)) INTO the bias broadcast over the nodes;
     other side out = (scatter-add of M at the rows row(e) into zeros) + the bias broadcast over the nodes.
   A scatter-add into x at an index array is, element by element, x(i) plus the sum of the updates that
   land on i.  So with equal index arrays the two sides are  b + S  and  (0 + S) + b : equal in any
   commutative additive monoid, the extended reals included, with no finiteness asked.  The messages are
   one shared term that is never opened.  The shape records and broadcast side conditions are parameters:
   this module names no program. -/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.HostTail

open Idealize.ShloMosaic Idealize.ShloMosaic.ValueIdx

/-- nodes x features -/
abbrev SN : Shape := ⟨2, ![100000, 128]⟩
/-- edges -/
abbrev SE : Shape := ⟨1, ![1600000]⟩
/-- edges as a column -/
abbrev SE1 : Shape := ⟨2, ![1600000, 1]⟩
/-- edges x features -/
abbrev SEF : Shape := ⟨2, ![1600000, 128]⟩
/-- features -/
abbrev SF : Shape := ⟨1, ![128]⟩
/-- features as a row -/
abbrev S1F : Shape := ⟨2, ![1, 128]⟩
/-- the scalar shape -/
abbrev S0 : Shape := ⟨0, ![]⟩

/-- The shape data the shared part of the tail cites: three broadcast side conditions, the gather's and the
    scatter's dimension numbers. -/
structure Dims where
  b0 : S0.BroadcastsInDim SE (![] : Fin 0 → Fin SE.rank)
  b1 : SE.BroadcastsInDim SE1 (![0] : Fin 1 → Fin SE1.rank)
  b2 : SE1.BroadcastsInDim SEF (![0, 1] : Fin 2 → Fin SEF.rank)
  G : GatherDims SN SE1 SEF
  SC : ScatterDims SN SE1 SEF

/-- A signed index wrapped once: `i + 100000` where `i < 0`, else `i`. -/
def wrap (D : Dims) (r : IVec SE 32) : IVec SE 32 :=
  select (cmpi .slt r (broadcastInDim SE ![] D.b0 (constantI S0 32 0#32)))
    (addi r (broadcastInDim SE ![] D.b0 (constantI S0 32 100000#32))) r

/-- The messages: edge `e`'s value times row `wrap (col e)` of the node features. -/
def msgs (D : Dims) (h : FVec Ideal SN .f32) (col : IVec SE 32) (val : FVec Ideal SE .f32) : FVec Ideal SEF .f32 :=
  mulf (broadcastInDim SEF ![0, 1] D.b2 (broadcastInDim SE1 ![0] D.b1 val))
    (Host.gather D.G h (broadcastInDim SE1 ![0] D.b1 (wrap D col)))

/-- The tail that scatters into the broadcast bias, at the wrapped rows. -/
def tailInto (D : Dims) (b3 : SF.BroadcastsInDim SN (![1] : Fin 1 → Fin SN.rank))
    (h : FVec Ideal SN .f32) (row col : IVec SE 32) (val : FVec Ideal SE .f32) (b : FVec Ideal SF .f32) : FVec Ideal SN .f32 :=
  Host.scatterAdd (F := Ideal) D.SC (broadcastInDim SN ![1] b3 b) (broadcastInDim SE1 ![0] D.b1 (wrap D row)) (msgs D h col val)

/-- The tail that scatters into zeros, at the rows as given, and adds the broadcast bias afterwards. -/
def tailThenAdd (D : Dims) (bz : S0.BroadcastsInDim SN (![] : Fin 0 → Fin SN.rank))
    (b4 : SF.BroadcastsInDim S1F (![1] : Fin 1 → Fin S1F.rank)) (b5 : S1F.BroadcastsInDim SN (![0, 1] : Fin 2 → Fin SN.rank))
    (h : FVec Ideal SN .f32) (row col : IVec SE 32) (val : FVec Ideal SE .f32) (b : FVec Ideal SF .f32) : FVec Ideal SN .f32 :=
  addf (Host.scatterAdd (F := Ideal) D.SC (broadcastInDim SN ![] bz (constant (F := Ideal) S0 .f32 0x00000000#32))
      (broadcastInDim SE1 ![0] D.b1 row) (msgs D h col val))
    (broadcastInDim SN ![0, 1] b5 (broadcastInDim S1F ![1] b4 b))

/-- The bias broadcast along the features reads `b` at the feature coordinate. -/
theorem bias1_apply (b3 : SF.BroadcastsInDim SN (![1] : Fin 1 → Fin SN.rank)) (b : FVec Ideal SF .f32) (i : SN.Idx) :
    broadcastInDim SN ![1] b3 b i = b (ix1 (i 1 : Fin 128)) :=
  broadcastInDim_apply _ b3 b i (ix1 (i 1 : Fin 128)) (fun a => match a with
    | ⟨0, _⟩ => by show (i 1).val = if (128 : Nat) = 1 then 0 else (i 1).val; rw [if_neg (by decide)])

/-- The bias broadcast first to a row and then over the nodes reads the same entry. -/
theorem bias2_apply (b4 : SF.BroadcastsInDim S1F (![1] : Fin 1 → Fin S1F.rank)) (b5 : S1F.BroadcastsInDim SN (![0, 1] : Fin 2 → Fin SN.rank))
    (b : FVec Ideal SF .f32) (i : SN.Idx) :
    broadcastInDim SN ![0, 1] b5 (broadcastInDim S1F ![1] b4 b) i = b (ix1 (i 1 : Fin 128)) := by
  generalize hy : broadcastInDim S1F ![1] b4 b = y
  refine (broadcastInDim_apply _ b5 y i (ix2 (⟨0, Nat.one_pos⟩ : Fin 1) (i 1 : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  subst hy
  exact broadcastInDim_apply _ b4 b _ (ix1 (i 1 : Fin 128)) (fun a => match a with
    | ⟨0, _⟩ => by show (i 1).val = if (128 : Nat) = 1 then 0 else (i 1).val; rw [if_neg (by decide)])

/-- The zero splat reads the extended real 0. -/
theorem zeros_apply (bz : S0.BroadcastsInDim SN (![] : Fin 0 → Fin SN.rank)) (i : SN.Idx) :
    broadcastInDim SN ![] bz (constant (F := Ideal) S0 .f32 0x00000000#32) i = (0 : EReal) := by
  rw [broadcastInDim_scalar_apply, constant_apply, Ideal.ofBits_zero_f32]

/-- Scattering into `x` is scattering into zeros and adding `x` afterwards, whenever `x` and `x'` agree and `z` is zero:
    element by element  (0 + S) + x = x + S  for the same sum `S` of the updates landing there. -/
theorem scatterAdd_into_eq {s si su : Shape} (d : ScatterDims s si su) {w : Nat} (x x' z : FVec Ideal s .f32) (idx : IVec si w)
    (upd : FVec Ideal su .f32) (hz : ∀ i, z i = (0 : EReal)) (hx : ∀ i, x' i = x i) :
    addf (Host.scatterAdd (F := Ideal) d z idx upd) x' = Host.scatterAdd (F := Ideal) d x idx upd := by
  funext i
  rw [addf_apply]
  unfold Host.scatterAdd
  rw [Ideal.hostScatterAdd_def, Ideal.hostScatterAdd_def]
  unfold Ideal.hostScatterAdd
  rw [hz i, hx i, zero_add, add_comm]

/-- THE LAW: where wrapping leaves the row indices as they are, the two arrangements of the tail are one function. -/
theorem tailThenAdd_eq_tailInto (D : Dims) (b3 : SF.BroadcastsInDim SN (![1] : Fin 1 → Fin SN.rank))
    (bz : S0.BroadcastsInDim SN (![] : Fin 0 → Fin SN.rank))
    (b4 : SF.BroadcastsInDim S1F (![1] : Fin 1 → Fin S1F.rank)) (b5 : S1F.BroadcastsInDim SN (![0, 1] : Fin 2 → Fin SN.rank))
    (h : FVec Ideal SN .f32) (row col : IVec SE 32) (val : FVec Ideal SE .f32) (b : FVec Ideal SF .f32)
    (hrow : wrap D row = row) :
    tailThenAdd D bz b4 b5 h row col val b = tailInto D b3 h row col val b := by
  unfold tailThenAdd tailInto
  rw [hrow]
  generalize msgs D h col val = M
  generalize broadcastInDim SE1 ![0] D.b1 row = I
  generalize hZ : broadcastInDim SN ![] bz (constant (F := Ideal) S0 .f32 0x00000000#32) = Z
  generalize hB2 : broadcastInDim SN ![0, 1] b5 (broadcastInDim S1F ![1] b4 b) = B2
  generalize hB1 : broadcastInDim SN ![1] b3 b = B1
  refine scatterAdd_into_eq D.SC B1 B2 Z I M (fun i => ?_) (fun i => ?_)
  · rw [← hZ]; exact zeros_apply bz i
  · rw [← hB2, ← hB1]; exact (bias2_apply b4 b5 b i).trans (bias1_apply b3 b i).symm

end Cert.HostTail

end
-- ==== Proof.HostPre.lean ====
/- The precondition read back: every row index is non-negative, so wrapping it changes nothing.

   The precondition is a conjunction whose last conjunct is "all of row >= 0" (a reduction by `and` of the
   signed comparison of each row index with 0).  If the whole conjunction is 1 then that reduction is 1,
   so every comparison is 1; a word that is >= 0 signed is not < 0 signed, so the wrap's select takes its
   second branch at every edge.  The float conjuncts are never opened. -/
import proofs.«137048_j5403068858431_2_alg».proof.Pre_finite_inputs
import proofs.«137048_j5403068858431_2_alg».proof.Proof.HostLaw
import Idealize.ShloMosaic.Lib.ReduceAll
import Idealize.ShloMosaic.Lib.IdealHost

noncomputable section

namespace Cert.HostPre

open Idealize.ShloMosaic Idealize.ShloMosaic.ValueIdx Cert.HostTail

/-- A 32-bit word that is at least 0 as a signed integer is not below 0 as a signed integer. -/
theorem not_slt_of_sge (x : BitVec 32) (h : IntOp.cmpi .sge x 0#32 = 1#1) : IntOp.cmpi .slt x 0#32 = 0#1 := by
  have h1 : BitVec.ofBool ((0#32).sle x) = 1#1 := h
  show BitVec.ofBool (x.slt 0#32) = 0#1
  have h2 : (0#32).sle x = true := by
    cases hb : (0#32).sle x with
    | false => rw [hb] at h1; exact absurd h1 (by decide)
    | true => rfl
  have h3 : x.slt 0#32 = false := by
    simp only [BitVec.slt, BitVec.sle, decide_eq_true_eq, decide_eq_false_iff_not] at h2 ⊢
    omega
  rw [h3]; rfl

/-- The scalar shape has one index. -/
instance : Subsingleton Cert.Pre_finite_inputs.S_.Idx := ⟨fun _ _ => funext fun d => d.elim0⟩

/-- Under the precondition, wrapping the row indices leaves them as they are. -/
theorem wrap_row_eq [Cert.Pre_finite_inputs.Facts] (D : Dims)
    (a0 : FVec Ideal Cert.Pre_finite_inputs.S100000x256 .f32) (a1 a2 : IVec Cert.Pre_finite_inputs.S1600000 32)
    (a3 : FVec Ideal Cert.Pre_finite_inputs.S1600000 .f32) (a4 : FVec Ideal Cert.Pre_finite_inputs.S256x128 .f32)
    (a5 : FVec Ideal Cert.Pre_finite_inputs.S128 .f32)
    (h : Cert.Pre_finite_inputs.fn (F := Ideal) a0 a1 a2 a3 a4 a5 = fun _ => 1#1) : wrap D a1 = a1 := by
  have h0 := congrFun h ix0
  dsimp only [Cert.Pre_finite_inputs.fn, Cert.Pre_finite_inputs.fn_part1] at h0
  have h1 := (IntOp.andi_eq_one.1 h0).2
  funext i
  have h2 := Host.reduce_andi_all _ _ _ _ ix0 h1 i
  have h3 : IntOp.cmpi .sge (a1 i) 0#32 = 1#1 := by
    have h2' : IntOp.cmpi .sge (a1 i) (broadcastInDim Cert.Pre_finite_inputs.S1600000 ![] Cert.Pre_finite_inputs.Facts.bcast_S_S1600000
        (constantI Cert.Pre_finite_inputs.S_ 32 0#32) i) = 1#1 := h2
    rwa [broadcastInDim_scalar_apply] at h2'
  unfold wrap
  rw [select_apply]
  have hc : cmpi .slt a1 (broadcastInDim SE ![] D.b0 (constantI S0 32 0#32)) i = 0#1 := by
    show IntOp.cmpi .slt (a1 i) (broadcastInDim SE ![] D.b0 (constantI S0 32 0#32) i) = 0#1
    rw [broadcastInDim_scalar_apply]
    exact not_slt_of_sge _ h3
  rw [hc, select_zero]

end Cert.HostPre

end
-- ==== Proof.HostKTail.lean ====
/- The kernel program's lines after its region, read back as one function.

   After the region has left the product matrix in its output array, the program's remaining 22 host
   operations wrap the column indices, gather the product's rows at them, scale each gathered row by the
   edge's value, wrap the row indices, and scatter-add the scaled rows into the bias broadcast over the
   nodes.  Composed, they are `tailInto` of the output array and of four argument arrays, none of which
   any of those operations (or the region) writes. -/
import proofs.«137048_j5403068858431_2_alg».proof.Proof.Gen.KernelIdeal.Frame
import proofs.«137048_j5403068858431_2_alg».proof.Proof.HostLaw
import Idealize.ShloMosaic.Lib.StableHlo.Run

noncomputable section

namespace Cert.KernelIdeal.HostK

open Idealize.ShloMosaic Idealize.ShloMosaic.TcCoe Idealize.SL.Sem Idealize.ShloMosaic.StableHlo
open Cert.KernelIdeal Cert.KernelIdeal.Gen Cert.HostTail
open Idealize.ShloMosaic.Pipeline (Dat)

/-- The kernel program's shape data for the shared tail. -/
def DK : Dims :=
  ⟨Cert.KernelIdeal.Facts₀.bcast_S_S1600000, Cert.KernelIdeal.Facts₀.bcast_S1600000_S1600000x1_0,
    Cert.KernelIdeal.Facts₀.bcast_S1600000x1_S1600000x128_0_1,
    Cert.KernelIdeal.gather_S100000x128_S1600000x1_S1600000x128_1_0_n_n_0_1_1128,
    Cert.KernelIdeal.scatter_S100000x128_S1600000x1_S1600000x128_1_0_0_1⟩

/-- The 22 operations after the region, from ANY buffer contents `W`: the result buffer ends at `tailInto` of the
    contents of the region's output array and of the row, column, value and bias arguments. -/
theorem after_hostOps1 (W : Valuation τ sig (Elt Ideal)) :
    StableHlo.after (hostOps1 (F := Ideal)) W (Proc.devRef .tc main_v18)
      = tailInto DK Cert.KernelIdeal.Facts₀.bcast_S128_S100000x128_1 (W (Proc.devRef .tc main_v0))
          (W (Proc.devRef .tc main_arg1)) (W (Proc.devRef .tc main_arg2)) (W (Proc.devRef .tc main_arg3))
          (W (Proc.devRef .tc main_arg5)) := by
  after_results_simp
  rfl

/-- The program's result after the whole run, for any proof data of the region: `tailInto` of the output array the
    region left and of the argument arrays as launched. -/
theorem afterTail_main_v18 (m : (ℓ : Loc nD τ sig) → Buf (Elt Ideal) ℓ)
    (dats : (p : Fin 1) → (c : Dev nD) → Dat τ (Elt Ideal) Unit ℕ (UR sig nD τ) ℕ (cfgs p) c) (c : Dev nD) :
    Pipeline.afterTail₀ cfgs dats 0 (V0 m) [hostOps1] c main_v18
      = tailInto DK Cert.KernelIdeal.Facts₀.bcast_S128_S100000x128_1 ((dats 0 c).arrAt 2 cfg0.N)
          (m ((c : Thread nD τ).loc main_arg1)) (m ((c : Thread nD τ).loc main_arg2))
          (m ((c : Thread nD τ).loc main_arg3)) (m ((c : Thread nD τ).loc main_arg5)) := by
  unfold Pipeline.afterTail₀
  show StableHlo.after hostOps1 _ (Proc.devRef .tc main_v18) = _
  rw [after_hostOps1]
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    Pipeline.withArrays_of_ne _ c (V0 m c) _ main_arg5 (by exact (by decide : ∀ w, Pipeline.arrRef spec0 w ≠ main_arg5))]
  rw [show Pipeline.withArrays (cfgs 0).spec c (V0 m c) (fun w => (dats 0 c).arrAt w (cfgs 0).N) (Proc.devRef .tc main_v0)
        = (dats 0 c).arrAt 2 cfg0.N from Pipeline.withArrays_arr spec0 launch0.win.arr_inj c _ _ 2]
  rfl

end Cert.KernelIdeal.HostK

end
-- ==== Proof.HostRef.lean ====
/- The reference program's result as the shared tail of the product matrix.

   The reference multiplies the two factor arrays on the host: entry (r, c) of that product is the sum
   over k of x(r, k) * w(k, c), which is `Hmat`.  Its remaining operations wrap the column indices,
   gather, scale, scatter-add into zeros at the row indices AS GIVEN, and add the bias broadcast over the
   nodes: composed, `tailThenAdd` of the product and of four argument arrays. -/
import proofs.«137048_j5403068858431_2_alg».proof.Defs
import proofs.«137048_j5403068858431_2_alg».proof.Proof.Gen.ReferenceIdeal.Run
import proofs.«137048_j5403068858431_2_alg».proof.Proof.Gen.ReferenceIdeal.Read
import proofs.«137048_j5403068858431_2_alg».proof.Proof.HostSpec
import proofs.«137048_j5403068858431_2_alg».proof.Proof.HostLaw

noncomputable section

open scoped BigOperators

namespace Cert.ReferenceIdeal.HostR

open Idealize.ShloMosaic Idealize.ShloMosaic.ValueIdx
open Cert.ReferenceIdeal Cert.ReferenceIdeal.Gen Cert.HostTail Cert.HostSpec

/-- The reference program's shape data for the shared tail. -/
def DR : Dims :=
  ⟨Cert.ReferenceIdeal.Facts₀.bcast_S_S1600000, Cert.ReferenceIdeal.Facts₀.bcast_S1600000_S1600000x1_0,
    Cert.ReferenceIdeal.Facts₀.bcast_S1600000x1_S1600000x128_0_1,
    Cert.ReferenceIdeal.gather_S100000x128_S1600000x1_S1600000x128_1_0_n_n_0_1_1128,
    Cert.ReferenceIdeal.scatter_S100000x128_S1600000x1_S1600000x128_1_0_0_1⟩

/-- The host's product of the two factor arrays is the product matrix: at (r, c) the sum over the contracted
    coordinate k of x(r, k) * w(k, c). -/
theorem dot_eq_Hmat (x : FVec Ideal S100000x256 .f32) (w : FVec Ideal S256x128 .f32) :
    Host.dotGeneral (F := Ideal) dot_S100000x256_S256x128_S100000x128_1_0_0_1_n_n none x w = Hmat x w := by
  funext i
  refine (Read.val_main_v0_apply x w i).trans ?_
  unfold Hmat
  refine Finset.sum_congr rfl fun k _ => ?_
  have el : Read.lidx_main_v0 i k = ix2 (i 0 : Fin 100000) k :=
    funext fun a => Fin.ext (by match a with | ⟨0, _⟩ => rfl | ⟨1, _⟩ => rfl)
  have er : Read.ridx_main_v0 i k = ix2 k (i 1 : Fin 128) :=
    funext fun a => Fin.ext (by match a with | ⟨0, _⟩ => rfl | ⟨1, _⟩ => rfl)
  exact congrArg₂ (· * ·) (congrArg x el) (congrArg w er)

/-- The reference's last stage, as a function of its six arguments, is `tailThenAdd` of the product matrix. -/
theorem val_main_v16_eq_tail (x0 : FVec Ideal S100000x256 .f32) (x1 x2 : IVec S1600000 32) (x3 : FVec Ideal S1600000 .f32)
    (x4 : FVec Ideal S256x128 .f32) (x5 : FVec Ideal S128 .f32) :
    Read.val_main_v16 (F := Ideal) x0 x1 x2 x3 x4 x5
      = tailThenAdd DR Cert.ReferenceIdeal.Facts₀.bcast_S_S100000x128 Cert.ReferenceIdeal.Facts₀.bcast_S128_S1x128_1
          Cert.ReferenceIdeal.Facts₀.bcast_S1x128_S100000x128_0_1 (Hmat x0 x4) x1 x2 x3 x5 := by
  rw [← dot_eq_Hmat]
  rfl

end Cert.ReferenceIdeal.HostR

end
-- ==== Proof.HostAlgebraic.lean ====
/- The two idealized programs end with equal results: the assembly.

   Given a run of the kernel program whose region leaves the product matrix `Hmat x w` in its output
   array (taken here as hypotheses about the region's proof data), the kernel program's result is
   `tailInto` of that product and the reference's is `tailThenAdd` of the same product.  The
   precondition makes every row index non-negative, so wrapping the rows changes nothing and the two
   arrangements agree:  b + S = (0 + S) + b  element by element.  The two programs' shape records are
   separate constants with equal fields, hence equal. -/
import proofs.«137048_j5403068858431_2_alg».proof.Defs
import proofs.«137048_j5403068858431_2_alg».proof.Proof.Gen.KernelIdeal.Frame
import proofs.«137048_j5403068858431_2_alg».proof.Proof.Gen.ReferenceIdeal.Run
import proofs.«137048_j5403068858431_2_alg».proof.Proof.Gen.ReferenceIdeal.Read
import proofs.«137048_j5403068858431_2_alg».proof.Proof.Gen.Pre_finite_inputs
import proofs.«137048_j5403068858431_2_alg».proof.Proof.HostSpec
import proofs.«137048_j5403068858431_2_alg».proof.Proof.HostLaw
import proofs.«137048_j5403068858431_2_alg».proof.Proof.HostPre
import proofs.«137048_j5403068858431_2_alg».proof.Proof.HostKTail
import proofs.«137048_j5403068858431_2_alg».proof.Proof.HostRef

noncomputable section

namespace Cert.KernelIdeal.HostAlg

open Idealize.ShloMosaic Idealize.ShloMosaic.TcCoe Idealize.SL.Sem
open Cert.KernelIdeal Cert.KernelIdeal.Gen Cert.HostTail Cert.HostSpec
open Idealize.ShloMosaic.Pipeline (Dat)

/-- The two programs' shape data for the shared tail are the same: equal fields, and side conditions that are
    propositions. -/
theorem DR_eq_DK : Cert.ReferenceIdeal.HostR.DR = Cert.KernelIdeal.HostK.DK := rfl

/-- The reference program runs and leaves its arguments as launched: its generated run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Under the precondition, wrapping the kernel program's row argument leaves it as it is, on every device. -/
theorem wrap_row_of_pre (m : (ℓ : Loc nD τ sig) → Buf (Elt Ideal) ℓ) (hpre : Cert.Pre_KernelIdeal m) (c : Dev nD) :
    wrap Cert.KernelIdeal.HostK.DK (m ((c : Thread nD τ).loc main_arg1)) = m ((c : Thread nD τ).loc main_arg1) :=
  Cert.HostPre.wrap_row_eq Cert.KernelIdeal.HostK.DK _ _ _ _ _ _ (hpre c)

/-- THE ALGEBRAIC CLAIM from a run of the kernel program: for any proof data of the region whose arrays are the
    region-entry contents (`hA`), that a run reaches the frame post with (`hrun`), and whose output array ends at
    the product matrix of the two factor arguments (`hfinal`). -/
theorem algebraic_of
    (dats : ∀ (m : (ℓ : Loc nD τ sig) → Buf (Elt Ideal) ℓ), (p : Fin 1) → (c : Dev nD) →
      Dat τ (Elt Ideal) Unit ℕ (UR sig nD τ) ℕ (cfgs p) c)
    (hA : ∀ m c w, (dats m 0 c).A w = V m c (Pipeline.arrRef spec0 w))
    (hrun : ∀ m ρ, θ_run defs (onTc (τ := τ) (main (F := Ideal))) (s₀ m ρ)
      (Pipeline.FramePost cfgs (dats m) 0 (Pipeline.afterTail₀ cfgs (dats m) 0 (V0 m) [hostOps1])))
    (hfinal : ∀ m (c : Dev nD), (dats m 0 c).arrAt 2 cfg0.N
      = Hmat (m ((c : Thread nD τ).loc main_arg0)) (m ((c : Thread nD τ).loc main_arg4))) :
    Cert.algebraic_KernelIdeal_ReferenceIdeal := by
  intro m ρ m' ρ' hpre hagree
  -- the kernel program's result, on every device
  have hk : ∀ c : Dev nD, Pipeline.afterTail₀ cfgs (dats m) 0 (V0 m) [hostOps1] c main_v18
      = tailInto Cert.KernelIdeal.HostK.DK Cert.KernelIdeal.Facts₀.bcast_S128_S100000x128_1
          (Hmat (m ((c : Thread nD τ).loc main_arg0)) (m ((c : Thread nD τ).loc main_arg4)))
          (m ((c : Thread nD τ).loc main_arg1)) (m ((c : Thread nD τ).loc main_arg2))
          (m ((c : Thread nD τ).loc main_arg3)) (m ((c : Thread nD τ).loc main_arg5)) := fun c => by
    rw [Cert.KernelIdeal.HostK.afterTail_main_v18 m (dats m) c, hfinal m c]
  refine ⟨fun c => tailInto Cert.KernelIdeal.HostK.DK Cert.KernelIdeal.Facts₀.bcast_S128_S100000x128_1
      (Hmat (m ((c : Thread nD τ).loc main_arg0)) (m ((c : Thread nD τ).loc main_arg4)))
      (m ((c : Thread nD τ).loc main_arg1)) (m ((c : Thread nD τ).loc main_arg2))
      (m ((c : Thread nD τ).loc main_arg3)) (m ((c : Thread nD τ).loc main_arg5)), ?_, ?_⟩
  · -- the kernel program: the result from the frame post's second clause, the arguments as the frame claim reads them
    exact (θ_run defs _ _).mono (fun _ h c =>
      ⟨((h c).2 main_v18 (Pipeline.mem_restRefs_of main_v18 (by decide) (by decide))).trans (hk c),
        ((h c).1 0).trans (((dats m 0 c).arrAt_in 0 rfl _).trans ((hA m c 0).trans (V_main_arg0 m c))),
        (((h c).2 main_arg1 (Pipeline.mem_restRefs_of main_arg1 (by decide) (by decide))).trans (W_main_arg1 m (dats m) c)),
        (((h c).2 main_arg2 (Pipeline.mem_restRefs_of main_arg2 (by decide) (by decide))).trans (W_main_arg2 m (dats m) c)),
        (((h c).2 main_arg3 (Pipeline.mem_restRefs_of main_arg3 (by decide) (by decide))).trans (W_main_arg3 m (dats m) c)),
        ((h c).1 1).trans (((dats m 0 c).arrAt_in 1 rfl _).trans ((hA m c 1).trans (V_main_arg4 m c))),
        (((h c).2 main_arg5 (Pipeline.mem_restRefs_of main_arg5 (by decide) (by decide))).trans (W_main_arg5 m (dats m) c))⟩)
      (hrun m ρ)
  · -- the reference: its generated run, its last stage as the shared tail, the arguments agreeing, then the law
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.HostR.val_main_v16_eq_tail,
      (hagree c).1, (hagree c).2.1, (hagree c).2.2.1, (hagree c).2.2.2.1, (hagree c).2.2.2.2.1, (hagree c).2.2.2.2.2,
      DR_eq_DK]
    exact tailThenAdd_eq_tailInto Cert.KernelIdeal.HostK.DK _ _ _ _ _ _ _ _ _ (wrap_row_of_pre m hpre c)

end Cert.KernelIdeal.HostAlg

end
-- ==== Proof.lean ====
/-
  The certificate of a graph-convolution layer: out = segment-sum over edges of edge_val · (x·w)[edge_col] into
  row edge_row, plus the bias b, over x f32[100000, 256], w f32[256, 128], 1 600 000 edges.

  The kernel computes the dense product h = x·w in ONE region of 13 grid points — point t multiplies rows
  8192·t … of x (rounded to bf16, which is the identity at the ideal instance) by the whole of w into a zero
  accumulator; the last block overhangs the 100000-row arrays and only its 1696 rows inside are fetched and written
  back — and leaves the gather, the scaling by edge_val and the scatter-add to host operations, scattering into the
  broadcast bias. The reference computes h by one host contraction, scatters into zeros and adds the bias afterwards.

  At the ideal instance both h are the matrix Σ_{k<256} x(r,k)·w(k,q) (Proof/RegionRun.lean: every row of the
  output lies in the rows some point moves, and entry (r,q) of a block product depends on row r of the staged block
  only, so the unnamed tail of the last x block is never seen), both programs gather the same rows of it at the same
  normalised column indices, and b + S = (0 + S) + b on the extended reals with no finiteness needed
  (Proof/HostLaw.lean). The two scatters agree once their row indices do: the kernel's are normalised
  (a negative index wraps), the reference's are not (a negative index is dropped), so the claim is stated for
  edge_row ≥ 0, the one conjunct of the precondition the proof opens (Proof/HostPre.lean).

  The three frames: the word-level kernel's by relational proof data that says nothing of what the body leaves
  (Proof/WordFrame.lean); the idealized kernel's from the same run that gives its value (Proof/RegionRun.lean); the
  reference's from its run. The idealization rewrote nothing, so `preserves` is `True`.
-/
import proofs.«137048_j5403068858431_2_alg».proof.Defs
import proofs.«137048_j5403068858431_2_alg».proof.Proof.Gen.Kernel
import proofs.«137048_j5403068858431_2_alg».proof.Proof.Gen.KernelIdeal
import proofs.«137048_j5403068858431_2_alg».proof.Proof.Gen.ReferenceIdeal
import proofs.«137048_j5403068858431_2_alg».proof.Proof.Gen.Pre_finite_inputs
import proofs.«137048_j5403068858431_2_alg».proof.Proof.WordFrame
import proofs.«137048_j5403068858431_2_alg».proof.Proof.RegionRun
import proofs.«137048_j5403068858431_2_alg».proof.Proof.HostAlgebraic
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Region.frame (F := Bits) m ρ

/-- So does the idealized kernel. -/
theorem frame_kernelIdeal : Cert.frame_KernelIdeal := fun m ρ _ => Cert.KernelIdeal.Region.frame m ρ

/-- And the reference. -/
theorem frame_referenceIdeal : Cert.frame_ReferenceIdeal := Cert.KernelIdeal.HostAlg.frame_ReferenceIdeal

/-- The idealization rewrote no operation. -/
theorem preserves : Cert.preserves_Kernel_KernelIdeal := trivial

/-- The two idealized programs end with equal results: the region's output is x·w (`final_h`), and the host
    tails agree on it. -/
theorem algebraic : Cert.algebraic_KernelIdeal_ReferenceIdeal :=
  Cert.KernelIdeal.HostAlg.algebraic_of Cert.KernelIdeal.Region.dats Cert.KernelIdeal.Region.A_eq
    Cert.KernelIdeal.Region.run_main (fun m c => Cert.KernelIdeal.Region.final_h m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
